-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8192 : Shape := ⟨3, ![32, 256, 8192]⟩
abbrev S4x256 : Shape := ⟨2, ![4, 256]⟩
abbrev S32 : Shape := ⟨1, ![32]⟩
abbrev S_ : Shape := ⟨0, ![]⟩

class Facts : Prop where
  bcast_S_S32x256x8192 : S_.BroadcastsInDim S32x256x8192 (![] : Fin 0 → Fin S32x256x8192.rank)
  reducesTo_S32x256x8192_S_d0_1_2 : S32x256x8192.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S32x256x8192 .f32) (main_arg1 : FVec F S4x256 .f32) (main_arg2 : FVec F S4x256 .f32) (main_arg3 : IVec S32 32) : IVec S_ 1 :=
  let main_v0 : FVec F S32x256x8192 .f32 := Host.absf main_arg0
  let main_cst : FVec F S_ .f32 := constant S_ .f32 0x7F800000#32
  let main_v1 : FVec F S32x256x8192 .f32 := broadcastInDim S32x256x8192 ![] bcast_S_S32x256x8192 main_cst
  let main_v2 : IVec S32x256x8192 1 := cmpf .olt main_v0 main_v1
  let main_c : IVec S_ 1 := constantI S_ 1 1#1
  let main_v3 : IVec S_ 1 := (fun x v => Host.reduce IntOp.andi x v reducesTo_S32x256x8192_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  main_v13
-- ==== Kernel.lean ====
abbrev S32x256x8192 : Shape := ⟨3, ![32, 256, 8192]⟩
abbrev S4x256 : Shape := ⟨2, ![4, 256]⟩
abbrev S32 : Shape := ⟨1, ![32]⟩
abbrev S_ : Shape := ⟨0, ![]⟩
abbrev S32x1 : Shape := ⟨2, ![32, 1]⟩
abbrev S32x256 : Shape := ⟨2, ![32, 256]⟩
abbrev S32x256x1 : Shape := ⟨3, ![32, 256, 1]⟩
abbrev S1x256x8192 : Shape := ⟨3, ![1, 256, 8192]⟩
abbrev S1x256x1 : Shape := ⟨3, ![1, 256, 1]⟩
abbrev S256x1 : Shape := ⟨2, ![256, 1]⟩
abbrev S1x256x1024 : Shape := ⟨3, ![1, 256, 1024]⟩
abbrev S256x1024 : Shape := ⟨2, ![256, 1024]⟩
abbrev S256 : Shape := ⟨1, ![256]⟩

abbrev nBuf : Space → Nat
  | .hbm => 25
  | .vmem => 8
  | .smem => 0
  | _ => 0

abbrev bufTy : (tb : Table) → Fin (tcTables nBuf tb) → BufTy
  | .hbm, ⟨0, _⟩ => ⟨S32x256x8192, .f32⟩
  | .hbm, ⟨1, _⟩ => ⟨S4x256, .f32⟩
  | .hbm, ⟨2, _⟩ => ⟨S4x256, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S32x256, .f32⟩
  | .hbm, ⟨13, _⟩ => ⟨S32x256x1, .f32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S32x256, .f32⟩
  | .hbm, ⟨23, _⟩ => ⟨S32x256x1, .f32⟩
  | .hbm, ⟨24, _⟩ => ⟨S32x256x8192, .f32⟩
  | .local _ .vmem, ⟨0, _⟩ => ⟨S1x256x8192, .f32⟩
  | .local _ .vmem, ⟨1, _⟩ => ⟨S1x256x8192, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x8192, .f32⟩
  | .local _ .vmem, ⟨7, _⟩ => ⟨S1x256x8192, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v27 : BitVec 32 := Scalar.muli arg5 c1024_i32
  v27
def k0_off1 (k0_t1 : Fin k0_t1_loop.trips) : Fin 3 → Nat :=
  let c0_15 : Index := 0#32
  let c0_16 : Index := 0#32
  let c0_i32 : BitVec 32 := 0#32
  let c1_i32 : BitVec 32 := 1#32
  let arg5 : BitVec 32 := Scf.iv c0_i32 c1_i32 k0_t1
  let c1024_i32 : BitVec 32 := 1024#32
  let v27 : BitVec 32 := Scalar.muli arg5 c1024_i32
  let v28 : BitVec 32 := v27
  let v29 : Index := Scalar.indexCast v28
  ![0, 0, v29.toNat]
@[reducible] def k0_t2_loop : Scf.Loop 32 :=
  let c0_i32_11 : BitVec 32 := 0#32
  let c8_i32_12 : BitVec 32 := 8#32
  let v26 : BitVec 32 := Scalar.addi c0_i32_11 c8_i32_12
  let c1_i32_13 : BitVec 32 := 1#32
  ⟨c0_i32_11, v26, c1_i32_13⟩
def k0_mult2 (k0_t2 : Fin k0_t2_loop.trips) : BitVec 32 :=
  let c0_i32_11 : BitVec 32 := 0#32
  let c1_i32_13 : BitVec 32 := 1#32
  let arg5 : BitVec 32 := Scf.iv c0_i32_11 c1_i32_13 k0_t2
  let c1024_i32 : BitVec 32 := 1024#32
  let v27 : BitVec 32 := Scalar.muli arg5 c1024_i32
  v27
def k0_off2 (k0_t2 : Fin k0_t2_loop.trips) : Fin 3 → Nat :=
  let c0_15 : Index := 0#32
  let c0_16 : Index := 0#32
  let c0_i32_11 : BitVec 32 := 0#32
  let c1_i32_13 : BitVec 32 := 1#32
  let arg5 : BitVec 32 := Scf.iv c0_i32_11 c1_i32_13 k0_t2
  let c1024_i32 : BitVec 32 := 1024#32
  let v27 : BitVec 32 := Scalar.muli arg5 c1024_i32
  let v28 : BitVec 32 := v27
  let v29 : Index := Scalar.indexCast v28
  ![0, 0, v29.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S32x256_S32x256x1 : S32x256.ShapeCasts S32x256x1
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S256x1 : S256x1.ShapeCasts S256x1
  broadcasts_S256x1_S256x1024 : S256x1.Broadcasts S256x1024
  shapeCasts_S256x1024_S1x256x1024 : S256x1024.ShapeCasts S1x256x1024
  gather_S4x256_S32x1_S32x256_1_0_n_n_0_1_1256_wf : GatherDims.WF S4x256 S32x1 S32x256 [1] [0] [] [0] [] 1 ![1, 256]
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x256x1024.size a ≤ S1x256x8192.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1x256x1024.size a ≤ S1x256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S32x256x8192.size a
  hwx0_0 : ∀ i : grid0.Coords, EltTy.bits .f32 = 32 ∨ (Rect.block (s := S32x256x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x256x1.size a
  hwx0_2 : ∀ i : grid0.Coords, EltTy.bits .f32 = 32 ∨ (Rect.block (s := S32x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x8192.size a ≤ S32x256x8192.size a
  hwx0_3 : ∀ i : grid0.Coords, EltTy.bits .f32 = 32 ∨ (Rect.block (s := S32x256x8192) S1x256x8192.size (cc0_transform_3 i) (hinb0_3 i)).WholeWords (EltTy.packing .f32)

variable [Facts₀]

def gather_S4x256_S32x1_S32x256_1_0_n_n_0_1_1256 : GatherDims S4x256 S32x1 S32x256 where
  offsetDims := [1]
  collapsedSliceDims := [0]
  operandBatchingDims := []
  startIndicesBatchingDims := []
  startIndexMap := [0]
  indexVectorDim := 1
  sliceSizes := ![1, 256]
  wf := gather_S4x256_S32x1_S32x256_1_0_n_n_0_1_1256_wf

abbrev win0_0 : Pipeline.Window sig grid0 :=
  Pipeline.Window.ofSpec (Memref.whole main_arg0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x8192 : Shape := ⟨3, ![32, 256, 8192]⟩
abbrev S4x256 : Shape := ⟨2, ![4, 256]⟩
abbrev S32 : Shape := ⟨1, ![32]⟩
abbrev S_ : Shape := ⟨0, ![]⟩
abbrev S32x256 : Shape := ⟨2, ![32, 256]⟩
abbrev S32x256x1 : Shape := ⟨3, ![32, 256, 1]⟩
abbrev S32x1 : Shape := ⟨2, ![32, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S4x256, .f32⟩
  | .hbm, ⟨2, _⟩ => ⟨S4x256, .f32⟩
  | .hbm, ⟨3, _⟩ => ⟨S32, .i32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S32x256x8192, .f32⟩
  | .hbm, ⟨11, _⟩ => ⟨S32x256x8192, .f32⟩
  | .hbm, ⟨12, _⟩ => ⟨S32x256x8192, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x8192, .f32⟩
  | .hbm, ⟨20, _⟩ => ⟨S32x256x8192, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x1, .f32⟩
  | .hbm, ⟨25, _⟩ => ⟨S32x256x8192, .f32⟩
  | .hbm, ⟨26, _⟩ => ⟨S32x256x8192, .f32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S32x1, .i32⟩
  | .hbm, ⟨35, _⟩ => ⟨S32x256, .f32⟩
  | .hbm, ⟨36, _⟩ => ⟨S_, .i32⟩
  | .hbm, ⟨37, _⟩ => ⟨S32, .i32⟩
  | .hbm, ⟨38, _⟩ => ⟨S32, .i1⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S32, .i32⟩
  | .hbm, ⟨43, _⟩ => ⟨S32x1, .i32⟩
  | .hbm, ⟨44, _⟩ => ⟨S32x256, .f32⟩
  | .hbm, ⟨45, _⟩ => ⟨S32x256x1, .f32⟩
  | .hbm, ⟨46, _⟩ => ⟨S32x256x8192, .f32⟩
  | .hbm, ⟨47, _⟩ => ⟨S32x256x8192, .f32⟩
  | .hbm, ⟨48, _⟩ => ⟨S32x256x1, .f32⟩
  | .hbm, ⟨49, _⟩ => ⟨S32x256x8192, .f32⟩
  | .hbm, ⟨50, _⟩ => ⟨S32x256x8192, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  reducesTo_S32x256x8192_S32x256_d2 : S32x256x8192.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x8192_0_1_2 : S32x256x1.BroadcastsInDim S32x256x8192 (![0, 1, 2] : Fin 3 → Fin S32x256x8192.rank)
  bcast_S_S32 : S_.BroadcastsInDim S32 (![] : Fin 0 → Fin S32.rank)
  bcast_S32_S32x1_0 : S32.BroadcastsInDim S32x1 (![0] : Fin 1 → Fin S32x1.rank)
  gather_S4x256_S32x1_S32x256_1_0_n_n_0_1_1256_wf : GatherDims.WF S4x256 S32x1 S32x256 [1] [0] [] [0] [] 1 ![1, 256]

variable [Facts₀]

def gather_S4x256_S32x1_S32x256_1_0_n_n_0_1_1256 : GatherDims S4x256 S32x1 S32x256 where
  offsetDims := [1]
  collapsedSliceDims := [0]
  operandBatchingDims := []
  startIndicesBatchingDims := []
  startIndexMap := [0]
  indexVectorDim := 1
  sliceSizes := ![1, 256]
  wf := gather_S4x256_S32x1_S32x256_1_0_n_n_0_1_1256_wf

class Facts : Prop extends Facts₀ where

variable [Facts]
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.RowNormLaw.lean ====
/-
  Instance normalisation of one row, in two arrangements, over the extended reals.

  A row `x` of `n` entries is normalised to zero mean and unit variance (plus `ε` under the root) and then
  sent through an affine map `· * w + b`. The first arrangement ("moments") takes the mean as `S · (1/N)`,
  the variance as `max (Q · (1/N) − μ²) 0` from the sum `S` and the sum of squares `Q`, folds the inverse deviation
  and the weight into one scale and the rest into one shift, and returns `x l · scale + shift`. The second
  ("centred") divides by `N`, takes the variance as the mean of the squared centred entries and returns
  `((x l − μ) · rsqrt (var + ε)) · w + b`. On real entries, weight and bias the two agree: `Q/N − μ² = (1/N) Σ (x − μ)²`,
  which is non-negative, so the clamp at zero is the identity, and the rest is distributivity — which is where
  realness is needed: over the extended reals a product does not distribute over a sum at the infinities.
-/
import Idealize.ShloMosaic.PureOps.Ideal
import Idealize.ShloMosaic.PureOps.Ideal.Laws

noncomputable section

namespace Cert.RowNorm

open Idealize.ShloMosaic
open scoped BigOperators

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One normalised entry from the row's two moments: `S` the sum, `Q` the sum of squares, `cinv` the folded
    reciprocal of the length; the inverse deviation and the weight folded into one scale, the rest into one shift. -/
def fromMoments (cinv ε S Q xl w b : EReal) : EReal :=
  xl * (Ideal.rsqrt (max (Q * cinv - S * cinv * (S * cinv)) 0 + ε) * w)
    + (b - S * cinv * (Ideal.rsqrt (max (Q * cinv - S * cinv * (S * cinv)) 0 + ε) * w))

/-- The "moments" arrangement: mean and variance from the sum and the sum of squares, times the folded reciprocal
    `cinv`; the affine map folded into one scale and one shift. -/
def moments {n : ℕ} (cinv ε : EReal) (x : Fin n → EReal) (w b : EReal) (l : Fin n) : EReal :=
  fromMoments cinv ε (∑ k, x k) (∑ k, x k * x k) (x l) w b

/-- The "centred" arrangement: sums started from zero and divided by `cn`, the variance as the mean of the squared
    centred entries. -/
def centred {n : ℕ} (cn ε : EReal) (x : Fin n → EReal) (w b : EReal) (l : Fin n) : EReal :=
  (x l - Ideal.div (0 + ∑ k, x k) cn)
      * Ideal.rsqrt (Ideal.div (0 + ∑ k, (x k - Ideal.div (0 + ∑ k, x k) cn) * (x k - Ideal.div (0 + ∑ k, x k) cn)) cn + ε)
      * w + b

/-- Over the reals: the mean of the squared centred entries is the mean of the squares less the squared mean. -/
theorem centred_var {n : ℕ} (N : ℝ) (hN : N = n) (h0 : N ≠ 0) (x : Fin n → ℝ) :
    (∑ k, (x k - (∑ k, x k) * (1 / N)) * (x k - (∑ k, x k) * (1 / N))) * (1 / N)
      = (∑ k, x k * x k) * (1 / N) - (∑ k, x k) * (1 / N) * ((∑ k, x k) * (1 / N)) := by
  have e : ∀ k, (x k - (∑ k, x k) * (1 / N)) * (x k - (∑ k, x k) * (1 / N))
      = x k * x k - 2 * ((∑ k, x k) * (1 / N)) * x k + (∑ k, x k) * (1 / N) * ((∑ k, x k) * (1 / N)) := fun k => by ring
  simp only [e, Finset.sum_add_distrib, Finset.sum_sub_distrib, ← Finset.mul_sum, Finset.sum_const, Finset.card_univ,
    Fintype.card_fin, nsmul_eq_mul, ← hN]
  field_simp
  ring

/-- The two arrangements agree on real data, for `cinv = 1/N`, `cn = N = n` and a positive real `ε`. -/
theorem moments_eq_centred {n : ℕ} (N : ℝ) (hN : N = n) (h0 : N ≠ 0) (e : ℝ) (he : 0 < e)
    (x : Fin n → ℝ) (w b : ℝ) (l : Fin n) :
    moments (((1 / N : ℝ)) : EReal) (e : EReal) (fun k => (x k : EReal)) (w : EReal) (b : EReal) l
      = centred (N : EReal) (e : EReal) (fun k => (x k : EReal)) (w : EReal) (b : EReal) l := by
  have hpos : 0 < N := by
    rcases Nat.eq_zero_or_pos n with h | h
    · subst h; simp at hN; exact absurd hN h0
    · rw [hN]; exact_mod_cast h
  have hvar := centred_var N hN h0 x
  have hnn : 0 ≤ (∑ k, x k * x k) * (1 / N) - (∑ k, x k) * (1 / N) * ((∑ k, x k) * (1 / N)) := by
    rw [← hvar]
    exact mul_nonneg (Finset.sum_nonneg fun k _ => mul_self_nonneg _) (by positivity)
  have hv : 0 < (∑ k, x k * x k) * (1 / N) - (∑ k, x k) * (1 / N) * ((∑ k, x k) * (1 / N)) + e := by linarith
  unfold moments fromMoments centred
  simp only [zero_add, Ideal.div_coe h0, ← EReal.coe_mul, ← EReal.coe_sub, ← coe_sum, ← EReal.coe_add]
  rw [hvar, max_eq_left (by exact_mod_cast hnn)]
  simp only [← EReal.coe_add, Ideal.rsqrt_coe, if_neg (not_lt.mpr hv.le), if_neg hv.ne', ← EReal.coe_mul, ← EReal.coe_sub]
  congr 1
  ring

end Cert.RowNorm

end
-- ==== Proof.KernelRow.lean ====
/-
  What one grid point of the kernel leaves in its output block, as a function of the three input blocks.

  The body makes two passes over the `[1, 256, 8192]` block `x` in eight chunks of 1024 lanes. The first pass carries two
  columns: after `n` trips they hold, per row, the sum and the sum of squares of the row's first `1024·n` entries
  (`sums_after`, by induction over the trips: one trip adds one chunk's lane sums). The second pass stores, chunk by
  chunk, `x · scale + shift` with the scale and shift of the row computed from the two final sums, the weight
  column and the bias column. Each stored chunk is therefore a restriction of ONE function of the block index
  (`blockOut`: the row's normalisation in its "moments" arrangement), the eight chunks tile the block, and so the block
  read back is that function (`out_eq`).
-/
import proofs.«163896_j21260088115456_2_alg».proof.Proof.Gen.KernelIdeal.Frame
import proofs.«163896_j21260088115456_2_alg».proof.Proof.LibKeepdims
import proofs.«163896_j21260088115456_2_alg».proof.Proof.RowNormLaw
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx
open scoped BigOperators

/-! ## Layout operations of the body, read at an index -/

section Layout
variable {α : Type}

/-- A `[1, 256, 1024]` chunk seen as `[256, 1024]`. -/
theorem dropUnit_chunk (v : S1x256x1024.Idx → α) (h : S1x256x1024.ShapeCasts S256x1024) (r : Fin 256) (l : Fin 1024) :
    shapeCast S256x1024 v h (ix2 r l) = v (ix3 (0 : Fin 1) r l) :=
  (shapeCast_dropUnit_apply ![256, 1024] v h (ix2 r l)).trans
    (congrArg v (funext fun a => by match a with | ⟨0, _⟩ => rfl | ⟨1, _⟩ => rfl | ⟨2, _⟩ => rfl))

/-- A `[256, 1024]` value stored as a `[1, 256, 1024]` chunk. -/
theorem addUnit_chunk (v : S256x1024.Idx → α) (h : S256x1024.ShapeCasts S1x256x1024) (r : Fin 256) (l : Fin 1024) :
    shapeCast S1x256x1024 v h (ix3 (0 : Fin 1) r l) = v (ix2 r l) :=
  (shapeCast_addUnit_apply ![256, 1024] v h (ix3 (0 : Fin 1) r l)).trans
    (congrArg v (funext fun a => by match a with | ⟨0, _⟩ => rfl | ⟨1, _⟩ => rfl))

/-- A `[1, 256, 1]` block seen as the column `[256, 1]`. -/
theorem dropUnit_col (v : S1x256x1.Idx → α) (h : S1x256x1.ShapeCasts S256x1) (r : Fin 256) (u : Fin 1) :
    shapeCast S256x1 v h (ix2 r u) = v (ix3 (0 : Fin 1) r u) :=
  (shapeCast_dropUnit_apply ![256, 1] v h (ix2 r u)).trans
    (congrArg v (funext fun a => by match a with | ⟨0, _⟩ => rfl | ⟨1, _⟩ => rfl | ⟨2, _⟩ => rfl))

/-- The inverse square root of a vector at an index. -/
theorem rsqrt_apply {s : Shape} {φ : FTy} (a : FVec Ideal s φ) (i : s.Idx) : rsqrt a i = Ideal.rsqrt (a i) := rfl

end Layout

/-! ## The body's payloads at an index -/

theorem pay3_apply {F : FTy → Type} [FloatOps F] (v30 : Vec F S1x256x1024 .f32) (r : Fin 256) (l : Fin 1024) :
    k0_pay3 v30 (ix2 r l) = v30 (ix3 (0 : Fin 1) r l) := by
  unfold k0_pay3
  exact dropUnit_chunk v30 _ r l

/-- The carried sum after one more chunk: the chunk's lane sum of row `r` is added. -/
theorem pay4_apply (acc : FVec Ideal S256x1 .f32) (v30 : Vec Ideal S1x256x1024 .f32) (r : Fin 256) (u : Fin 1) :
    k0_pay4 acc v30 (ix2 r u) = acc (ix2 r u) + ∑ l : Fin 1024, v30 (ix3 (0 : Fin 1) r l) := by
  unfold k0_pay4
  refine congrArg (acc (ix2 r u) + ·) ?_
  refine (Cert.Keepdims.shapeCast_a_a1_apply _ shapeCasts_S256_S256x1 r u).trans ?_
  refine (Ideal.multiReduction_add_single (k0_pay3 v30) 0x00000000#32 reduces_S256x1024_S256 (.inl rfl) rfl (ix1 r)).trans ?_
  refine Finset.sum_congr rfl fun l _ => ?_
  exact (congrArg (k0_pay3 v30) (funext fun a => Fin.ext (by match a with | ⟨0, _⟩ => rfl | ⟨1, _⟩ => rfl))).trans (pay3_apply v30 r l)

/-- The carried sum of squares after one more chunk. -/
theorem pay5_apply (acc : FVec Ideal S256x1 .f32) (v30 : Vec Ideal S1x256x1024 .f32) (r : Fin 256) (u : Fin 1) :
    k0_pay5 acc v30 (ix2 r u) = acc (ix2 r u) + ∑ l : Fin 1024, v30 (ix3 (0 : Fin 1) r l) * v30 (ix3 (0 : Fin 1) r l) := by
  unfold k0_pay5
  refine congrArg (acc (ix2 r u) + ·) ?_
  refine (Cert.Keepdims.shapeCast_a_a1_apply _ shapeCasts_S256_S256x1 r u).trans ?_
  refine (Ideal.multiReduction_add_single (mulf (k0_pay3 v30) (k0_pay3 v30)) 0x00000000#32 reduces_S256x1024_S256 (.inl rfl) rfl (ix1 r)).trans ?_
  refine Finset.sum_congr rfl fun l _ => ?_
  have e : k0_pay3 v30 (reduces_S256x1024_S256.lift (ix1 r) l) = v30 (ix3 (0 : Fin 1) r l) :=
    (congrArg (k0_pay3 v30) (funext fun a => Fin.ext (by match a with | ⟨0, _⟩ => rfl | ⟨1, _⟩ => rfl))).trans (pay3_apply v30 r l)
  exact congrArg₂ (· * ·) e e

/-- The stored chunk at `(0, r, l)`: the entry times the row's scale plus the row's shift, from the two sums `S`, `Q` of the
    row, the weight and the bias of the row. -/
theorem pay6_apply (S Q : FVec Ideal S256x1 .f32) (v15 v17 : Vec Ideal S1x256x1 .f32) (v30 : Vec Ideal S1x256x1024 .f32)
    (r : Fin 256) (l : Fin 1024) :
    k0_pay6 S Q v15 v17 v30 (ix3 (0 : Fin 1) r l)
      = RowNorm.fromMoments (Ideal.ofBits .f32 0x39000000#32) (Ideal.ofBits .f32 0x3727C5AC#32)
          (S (ix2 r (0 : Fin 1))) (Q (ix2 r (0 : Fin 1))) (v30 (ix3 (0 : Fin 1) r l))
          (v15 (ix3 (0 : Fin 1) r (0 : Fin 1))) (v17 (ix3 (0 : Fin 1) r (0 : Fin 1))) := by
  unfold k0_pay6 RowNorm.fromMoments
  simp only [addUnit_chunk, dropUnit_chunk, dropUnit_col, Cert.Keepdims.broadcastTo_a1_ab_apply, shapeCast_self,
    addf_apply, mulf_apply, subf_apply, maximumf_apply, broadcast_apply, rsqrt_apply, Scalar.ofBits, Ideal.ofBits_def,
    Ideal.ofBits_zero_f32]

/-! ## The two loops, opened once -/

theorem trips1 : k0_t1_loop.trips = 8 := by decide
theorem trips2 : k0_t2_loop.trips = 8 := by decide

section Trips
variable {F : FTy → Type} [FloatOps F]
variable (𝒱 : Variants) (c : Dev nD) (bd : Option 𝒱.V) (i : grid0.Coords)
  (arg1 : Memref sig .tc .vmem S1x256x8192 .f32) (harg1 : arg1.IsWhole) (arg2 : Memref sig .tc .vmem S1x256x1 .f32) (harg2 : arg2.IsWhole)
  (arg3 : Memref sig .tc .vmem S1x256x1 .f32) (harg3 : arg3.IsWhole) (arg4 : Memref sig .tc .vmem S1x256x8192 .f32) (harg4 : arg4.IsWhole)
  (X : BufTy.Contents (Elt F) arg1.view.ty)

/-- One trip of the first loop: each carried column takes one chunk's contribution. -/
theorem tripR_eq (k : Fin k0_t1_loop.trips) (acc : FVec F S256x1 .f32 × FVec F S256x1 .f32) :
    tripR_k0_t1 (F := F) 𝒱 c bd i arg1 harg1 arg2 harg2 arg3 harg3 arg4 harg4 X k acc
      = (k0_pay4 acc.1 (View.readAt (Elt F) arg1.view (Rect.unit (s := S1x256x8192) (k0_off1 k) S1x256x1024.size (k0_off1_inb k)).toLoadRect X),
         k0_pay5 acc.2 (View.readAt (Elt F) arg1.view (Rect.unit (s := S1x256x8192) (k0_off1 k) S1x256x1024.size (k0_off1_inb k)).toLoadRect X)) := by
  unfold tripR_k0_t1 trip_k0_t1; rfl

/-- One trip of the second loop: one store, at the trip's chunk, of the payload of the chunk loaded there. -/
theorem tripL_eq (S Q : FVec F S256x1 .f32) (v15 v17 : Vec F S1x256x1 .f32) (k : Fin k0_t2_loop.trips) :
    tripL_k0_t2 (F := F) 𝒱 c bd i arg1 harg1 arg2 harg2 arg3 harg3 arg4 harg4 S Q v15 v17 X k
      = [⟨Rect.unit (s := S1x256x8192) (k0_off2 k) S1x256x1024.size (k0_off2_inb k),
          k0_pay6 S Q v15 v17 (View.readAt (Elt F) arg1.view (Rect.unit (s := S1x256x8192) (k0_off2 k) S1x256x1024.size (k0_off2_inb k)).toLoadRect X)⟩] := by
  unfold tripL_k0_t2 trip_k0_t2; rfl

end Trips

/-- The pieces the whole body leaves in the output block: the second loop's, over the first loop's final columns and the
    weight and bias blocks as loaded. -/
theorem run_pieces {F : FTy → Type} [FloatOps F] (c : Dev nD) (i : grid0.Coords)
    (arg1 : Memref sig .tc .vmem S1x256x8192 .f32) (harg1 : arg1.IsWhole) (arg2 : Memref sig .tc .vmem S1x256x1 .f32) (harg2 : arg2.IsWhole)
    (arg3 : Memref sig .tc .vmem S1x256x1 .f32) (harg3 : arg3.IsWhole) (arg4 : Memref sig .tc .vmem S1x256x8192 .f32) (harg4 : arg4.IsWhole)
    (x0 : Vec F S1x256x8192 .f32) (x1 x2 : Vec F S1x256x1 .f32) :
    (kernelRun0_A c i arg1 harg1 arg2 harg2 arg3 harg3 arg4 harg4 x0 x1 x2).1
      = pb_k0_t2 Variants.none c none i arg1 harg1 arg2 harg2 arg3 harg3 arg4 harg4
          (st_k0_t1 Variants.none c none i arg1 harg1 arg2 harg2 arg3 harg3 arg4 harg4 (harg1.unread x0) (k0_pay1, k0_pay2) k0_t1_loop.trips).1
          (st_k0_t1 Variants.none c none i arg1 harg1 arg2 harg2 arg3 harg3 arg4 harg4 (harg1.unread x0) (k0_pay1, k0_pay2) k0_t1_loop.trips).2
          (View.readAt (Elt F) arg2.view (Rect.unit (s := S1x256x1) ![0, 0, 0] S1x256x1.size inb_S1x256x1_S1x256x1_0_0_0).toLoadRect (harg2.unread x1))
          (View.readAt (Elt F) arg3.view (Rect.unit (s := S1x256x1) ![0, 0, 0] S1x256x1.size inb_S1x256x1_S1x256x1_0_0_0).toLoadRect (harg3.unread x2))
          (harg1.unread x0) k0_t2_loop.trips := by
  unfold kernelRun0_A; rfl

/-! ## The first pass: partial row sums -/

/-- The first `n` entries of row `r` of a `[1, 256, 8192]` block, summed. -/
def rowPrefix (f : S1x256x8192.Idx → EReal) (r : Fin 256) (n : ℕ) : EReal :=
  ∑ j ∈ Finset.range n, if h : j < 8192 then f (ix3 (0 : Fin 1) r ⟨j, h⟩) else 0

/-- All 8192 of them: the row's sum. -/
theorem rowPrefix_full (f : S1x256x8192.Idx → EReal) (r : Fin 256) :
    rowPrefix f r 8192 = ∑ k : Fin 8192, f (ix3 (0 : Fin 1) r k) := by
  unfold rowPrefix
  rw [Finset.sum_range]
  exact Finset.sum_congr rfl fun k _ => dif_pos k.isLt

/-- One more chunk of 1024 entries. -/
theorem rowPrefix_chunk (f : S1x256x8192.Idx → EReal) (r : Fin 256) (n : ℕ) (hn : n < 8) :
    rowPrefix f r ((n + 1) * 1024)
      = rowPrefix f r (n * 1024) + ∑ l : Fin 1024, f (ix3 (0 : Fin 1) r ⟨1024 * n + l.val, by have := l.isLt; omega⟩) := by
  unfold rowPrefix
  rw [show (n + 1) * 1024 = n * 1024 + 1024 by omega, Finset.sum_range_add]
  refine congrArg (_ + ·) ?_
  rw [Finset.sum_range]
  refine Finset.sum_congr rfl fun l _ => ?_
  have h : n * 1024 + l.val < 8192 := by have := l.isLt; omega
  rw [dif_pos h]
  exact congrArg f (congrArg (ix3 (0 : Fin 1) r) (Fin.ext (by show n * 1024 + l.val = 1024 * n + l.val; omega)))

section Loops
variable (𝒱 : Variants) (c : Dev nD) (bd : Option 𝒱.V) (i : grid0.Coords)
  (arg1 : Memref sig .tc .vmem S1x256x8192 .f32) (harg1 : arg1.IsWhole) (arg2 : Memref sig .tc .vmem S1x256x1 .f32) (harg2 : arg2.IsWhole)
  (arg3 : Memref sig .tc .vmem S1x256x1 .f32) (harg3 : arg3.IsWhole) (arg4 : Memref sig .tc .vmem S1x256x8192 .f32) (harg4 : arg4.IsWhole)
  (X : BufTy.Contents (Elt Ideal) arg1.view.ty)

/-- Where trip `k` of the first loop reads: entry `l` of row `r` of its chunk is entry `1024·k + l` of the row. -/
theorem chunk_idx1 (k : Fin k0_t1_loop.trips) (r : Fin 256) (l : Fin 1024) (h : 1024 * k.val + l.val < 8192) :
    (Rect.unit (s := S1x256x8192) (k0_off1 k) S1x256x1024.size (k0_off1_inb k)).toLoadRect.idx (ix3 (0 : Fin 1) r l)
      = ix3 (0 : Fin 1) r ⟨1024 * k.val + l.val, h⟩ := by
  funext a
  refine Fin.ext ?_
  rw [LoadRect.idx_apply]
  match a with
  | ⟨0, _⟩ => simp [Rect.unit, k0_off1_eq k]
  | ⟨1, _⟩ => simp [Rect.unit, k0_off1_eq k]
  | ⟨2, _⟩ => simp [Rect.unit, k0_off1_eq k]

/-- The same for the second loop's chunk (which it both reads and stores). -/
theorem chunk_idx2 (k : Fin k0_t2_loop.trips) (r : Fin 256) (l : Fin 1024) (h : 1024 * k.val + l.val < 8192) :
    (Rect.unit (s := S1x256x8192) (k0_off2 k) S1x256x1024.size (k0_off2_inb k)).toLoadRect.idx (ix3 (0 : Fin 1) r l)
      = ix3 (0 : Fin 1) r ⟨1024 * k.val + l.val, h⟩ := by
  funext a
  refine Fin.ext ?_
  rw [LoadRect.idx_apply]
  match a with
  | ⟨0, _⟩ => simp [Rect.unit, k0_off2_eq k]
  | ⟨1, _⟩ => simp [Rect.unit, k0_off2_eq k]
  | ⟨2, _⟩ => simp [Rect.unit, k0_off2_eq k]

/-- After `n` trips the two carried columns hold, at row `r`, the sum and the sum of squares of the row's first `1024·n`
    entries. -/
theorem sums_after (r : Fin 256) (u : Fin 1) : ∀ n : ℕ, n ≤ 8 →
    (st_k0_t1 (F := Ideal) 𝒱 c bd i arg1 harg1 arg2 harg2 arg3 harg3 arg4 harg4 X (k0_pay1, k0_pay2) n).1 (ix2 r u)
        = rowPrefix (arg1.view.read (Elt Ideal) X) r (n * 1024)
      ∧ (st_k0_t1 (F := Ideal) 𝒱 c bd i arg1 harg1 arg2 harg2 arg3 harg3 arg4 harg4 X (k0_pay1, k0_pay2) n).2 (ix2 r u)
        = rowPrefix (fun y => arg1.view.read (Elt Ideal) X y * arg1.view.read (Elt Ideal) X y) r (n * 1024)
  | 0, _ => by
    constructor
    · show k0_pay1 (F := Ideal) (ix2 r u) = _
      simp [k0_pay1, broadcast, Scalar.ofBits, rowPrefix]
    · show k0_pay2 (F := Ideal) (ix2 r u) = _
      simp [k0_pay2, broadcast, Scalar.ofBits, rowPrefix]
  | n + 1, hn => by
    have h : n < k0_t1_loop.trips := by rw [trips1]; omega
    obtain ⟨ih1, ih2⟩ := sums_after r u n (by omega)
    have e : st_k0_t1 (F := Ideal) 𝒱 c bd i arg1 harg1 arg2 harg2 arg3 harg3 arg4 harg4 X (k0_pay1, k0_pay2) (n + 1)
        = tripR_k0_t1 (F := Ideal) 𝒱 c bd i arg1 harg1 arg2 harg2 arg3 harg3 arg4 harg4 X ⟨n, h⟩
            (st_k0_t1 (F := Ideal) 𝒱 c bd i arg1 harg1 arg2 harg2 arg3 harg3 arg4 harg4 X (k0_pay1, k0_pay2) n) :=
      st_k0_t1_succ (F := Ideal) 𝒱 c bd i arg1 harg1 arg2 harg2 arg3 harg3 arg4 harg4 X (k0_pay1, k0_pay2) ⟨n, h⟩
    rw [e, tripR_eq]
    constructor
    · refine (pay4_apply _ _ r u).trans ?_
      rw [ih1, rowPrefix_chunk _ r n (by omega)]
      refine congrArg (_ + ·) (Finset.sum_congr rfl fun l _ => ?_)
      exact congrArg (arg1.view.read (Elt Ideal) X) (chunk_idx1 ⟨n, h⟩ r l _)
    · refine (pay5_apply _ _ r u).trans ?_
      rw [ih2, rowPrefix_chunk _ r n (by omega)]
      refine congrArg (_ + ·) (Finset.sum_congr rfl fun l _ => ?_)
      have hb : 1024 * n + l.val < 8192 := by have := l.isLt; omega
      have e := congrArg (arg1.view.read (Elt Ideal) X) (chunk_idx1 ⟨n, h⟩ r l hb)
      exact congrArg₂ (· * ·) e e

/-- Every index of a `[1, 256, 1024]` chunk is `(0, r, l)`. -/
theorem eq_chunk_ix (x : S1x256x1024.Idx) : ∃ (r : Fin 256) (l : Fin 1024), x = ix3 (0 : Fin 1) r l :=
  ⟨x 1, x 2, (eq_ix3 x).trans (congrArg (fun z : Fin 1 => ix3 z (x 1 : Fin 256) (x 2 : Fin 1024)) (Fin.eq_zero (x 0)))⟩

/-- The second pass: every piece stored in the first `n` trips is the restriction of ONE function `G` of the block index,
    when `G` is the normalisation of the entry from the row's sums `S`, `Q`, weight and bias. -/
theorem pieces_spec (S Q : FVec Ideal S256x1 .f32) (v15 v17 : Vec Ideal S1x256x1 .f32) (G : S1x256x8192.Idx → EReal)
    (hG : ∀ (k : ℕ) (r : Fin 256) (l : Fin 1024) (h : 1024 * k + l.val < 8192),
        RowNorm.fromMoments (Ideal.ofBits .f32 0x39000000#32) (Ideal.ofBits .f32 0x3727C5AC#32)
          (S (ix2 r (0 : Fin 1))) (Q (ix2 r (0 : Fin 1))) (arg1.view.read (Elt Ideal) X (ix3 (0 : Fin 1) r ⟨1024 * k + l.val, h⟩))
          (v15 (ix3 (0 : Fin 1) r (0 : Fin 1))) (v17 (ix3 (0 : Fin 1) r (0 : Fin 1)))
        = G (ix3 (0 : Fin 1) r ⟨1024 * k + l.val, h⟩)) : ∀ n : ℕ, n ≤ 8 →
    ∀ p ∈ pb_k0_t2 (F := Ideal) 𝒱 c bd i arg1 harg1 arg2 harg2 arg3 harg3 arg4 harg4 S Q v15 v17 X n,
      ∀ x : p.1.shape.Idx, p.2 x = G (p.1.emb x)
  | 0, _ => fun p hp => absurd hp List.not_mem_nil
  | n + 1, hn => fun p hp x => by
    have h : n < k0_t2_loop.trips := by rw [trips2]; omega
    have e : pb_k0_t2 (F := Ideal) 𝒱 c bd i arg1 harg1 arg2 harg2 arg3 harg3 arg4 harg4 S Q v15 v17 X (n + 1)
        = tripL_k0_t2 (F := Ideal) 𝒱 c bd i arg1 harg1 arg2 harg2 arg3 harg3 arg4 harg4 S Q v15 v17 X ⟨n, h⟩
            ++ pb_k0_t2 (F := Ideal) 𝒱 c bd i arg1 harg1 arg2 harg2 arg3 harg3 arg4 harg4 S Q v15 v17 X n :=
      pb_k0_t2_succ (F := Ideal) 𝒱 c bd i arg1 harg1 arg2 harg2 arg3 harg3 arg4 harg4 S Q v15 v17 X ⟨n, h⟩
    rw [e, tripL_eq] at hp
    rcases List.mem_append.mp hp with hp | hp
    · obtain rfl := List.mem_singleton.mp hp
      obtain ⟨r, l, rfl⟩ := eq_chunk_ix x
      have hb : 1024 * n + l.val < 8192 := by have := l.isLt; omega
      refine (pay6_apply S Q v15 v17 _ r l).trans ?_
      refine Eq.trans ?_ ((hG n r l hb).trans (congrArg G (chunk_idx2 ⟨n, h⟩ r l hb).symm))
      exact congrArg (fun z => RowNorm.fromMoments (Ideal.ofBits .f32 0x39000000#32) (Ideal.ofBits .f32 0x3727C5AC#32)
          (S (ix2 r (0 : Fin 1))) (Q (ix2 r (0 : Fin 1))) z (v15 (ix3 (0 : Fin 1) r (0 : Fin 1))) (v17 (ix3 (0 : Fin 1) r (0 : Fin 1))))
        (congrArg (arg1.view.read (Elt Ideal) X) (chunk_idx2 ⟨n, h⟩ r l hb))
    · exact pieces_spec S Q v15 v17 G hG n (by omega) p hp x

end Loops

/-! ## The block a grid point leaves -/

/-- The output block as one function of the three input blocks: row `r` of `x` normalised in the "moments" arrangement
    with the row's weight and bias. -/
def blockOut (x : S1x256x8192.Idx → EReal) (w b : S1x256x1.Idx → EReal) : S1x256x8192.Idx → EReal := fun y =>
  RowNorm.moments (Ideal.ofBits .f32 0x39000000#32) (Ideal.ofBits .f32 0x3727C5AC#32)
    (fun k : Fin 8192 => x (ix3 (0 : Fin 1) (y 1 : Fin 256) k))
    (w (ix3 (0 : Fin 1) (y 1 : Fin 256) (0 : Fin 1))) (b (ix3 (0 : Fin 1) (y 1 : Fin 256) (0 : Fin 1))) (y 2 : Fin 8192)

/-- What the body's run leaves in the output's staging buffer IS that function of the blocks it was given. -/
theorem out_eq (c : Dev nD) (i : grid0.Coords)
    (arg1 : Memref sig .tc .vmem S1x256x8192 .f32) (harg1 : arg1.IsWhole) (arg2 : Memref sig .tc .vmem S1x256x1 .f32) (harg2 : arg2.IsWhole)
    (arg3 : Memref sig .tc .vmem S1x256x1 .f32) (harg3 : arg3.IsWhole) (arg4 : Memref sig .tc .vmem S1x256x8192 .f32) (harg4 : arg4.IsWhole)
    (x0 : Vec Ideal S1x256x8192 .f32) (x1 x2 : Vec Ideal S1x256x1 .f32) :
    out0_A_3 (F := Ideal) c i arg1 harg1 arg2 harg2 arg3 harg3 arg4 harg4 x0 x1 x2 = blockOut x0 x1 x2 := by
  unfold out0_A_3
  rw [View.read_writes_eq_canon _ _ _ (cover0_A_3 c i arg1 harg1 arg2 harg2 arg3 harg3 arg4 harg4 x0 x1 x2)]
  funext y
  refine View.canon_apply_of_pieces (blockOut x0 x1 x2) _ ?_ y (cover0_A_3 c i arg1 harg1 arg2 harg2 arg3 harg3 arg4 harg4 x0 x1 x2 y)
  rw [run_pieces]
  have hz : (![0, 0, 0] : Fin 3 → ℕ) = fun _ => 0 :=
    funext fun a => by match a with | ⟨0, _⟩ => rfl | ⟨1, _⟩ => rfl | ⟨2, _⟩ => rfl
  have hx0 : arg1.view.read (Elt Ideal) (harg1.unread x0) = x0 := harg1.read_unread x0
  have hv15 : View.readAt (Elt Ideal) arg2.view (Rect.unit (s := S1x256x1) ![0, 0, 0] S1x256x1.size inb_S1x256x1_S1x256x1_0_0_0).toLoadRect (harg2.unread x1) = x1 := by
    rw [View.readAt_eq_ld, harg2.read_unread, View.ld_unit_zero (S := S1x256x1) hz]
  have hv17 : View.readAt (Elt Ideal) arg3.view (Rect.unit (s := S1x256x1) ![0, 0, 0] S1x256x1.size inb_S1x256x1_S1x256x1_0_0_0).toLoadRect (harg3.unread x2) = x2 := by
    rw [View.readAt_eq_ld, harg3.read_unread, View.ld_unit_zero (S := S1x256x1) hz]
  rw [hv15, hv17]
  refine pieces_spec Variants.none c none i arg1 harg1 arg2 harg2 arg3 harg3 arg4 harg4 (harg1.unread x0) _ _ x1 x2 (blockOut x0 x1 x2) ?_
    k0_t2_loop.trips (le_of_eq trips2)
  intro k r l h
  obtain ⟨e1, e2⟩ := sums_after Variants.none c none i arg1 harg1 arg2 harg2 arg3 harg3 arg4 harg4 (harg1.unread x0) r (0 : Fin 1)
    k0_t1_loop.trips (le_of_eq trips1)
  rw [e1, e2, hx0, trips1, rowPrefix_full, rowPrefix_full]
  rfl

end Cert.KernelIdeal.Body

end
-- ==== Proof.KernelArray.lean ====
/-
  From the blocks to the whole array: after the kernel's run the output array is ONE function of the three arrays its
  windows stage. Grid point `t` handles sample `t`: all four windows take block `(t, 0, 0)`, so the block of `x` is the
  sample's `[256, 8192]` slab and the weight and bias blocks are the sample's columns; what the point writes back is the
  slab normalised row by row (the body's function of its blocks), which is the block at `t` of the same normalisation
  stated on the whole arrays; and the 32 blocks tile the output array.
-/
import proofs.«163896_j21260088115456_2_alg».proof.Proof.Gen.KernelIdeal.Value
import proofs.«163896_j21260088115456_2_alg».proof.Proof.KernelRow

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The output array as one function of the staged arrays: row `(b, c)` of `X` normalised in the "moments" arrangement
    with the weight `W (b, c, 0)` and the bias `B (b, c, 0)`. -/
def arrayOut (X : S32x256x8192.Idx → EReal) (W B : S32x256x1.Idx → EReal) : S32x256x8192.Idx → EReal := fun i =>
  RowNorm.moments (Ideal.ofBits .f32 0x39000000#32) (Ideal.ofBits .f32 0x3727C5AC#32)
    (fun k : Fin 8192 => X (ix3 (i 0 : Fin 32) (i 1 : Fin 256) k))
    (W (ix3 (i 0 : Fin 32) (i 1 : Fin 256) (0 : Fin 1))) (B (ix3 (i 0 : Fin 32) (i 1 : Fin 256) (0 : Fin 1))) (i 2 : Fin 8192)

/-- The four index maps, decided over the grid: every window takes the block `(t₀, 0, 0)` the output takes. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) < 32 :=
  (by decide +kernel : ∀ t : Fin grid0.N, _)

/-- Every sample is some point's. -/
theorem idx_onto : ∀ q : Fin 32, ∃ t : Fin cfg0.N, win0_3.index t (0 : Fin 3) = q.val :=
  (by decide +kernel : ∀ q : Fin 32, ∃ t : Fin grid0.N, win0_3.index t (0 : Fin 3) = q.val)

/-- The sample grid point `t` handles. -/
def pt (t : Fin cfg0.N) : Fin 32 := ⟨win0_3.index t (0 : Fin 3), (idx_facts t).2.2.2.2.2.2.2.2.2.2.2⟩

/-- The block of `x` at point `t`: rows of sample `pt t`. -/
theorem read0 (c : Dev nD) (t : Fin cfg0.N) (r : Fin 256) (k : Fin 8192) :
    (iblk m c 0 t : Vec Ideal S1x256x8192 .f32) (ix3 (0 : Fin 1) r k) = V m c main_arg0 (ix3 (pt t) r k) := by
  obtain ⟨e0, e1, e2, -⟩ := idx_facts t
  show V m c main_arg0 (((cfg0.win 0).blk t).view.emb (ix3 (0 : Fin 1) r k)) = V m c main_arg0 (ix3 (pt t) r k)
  refine congrArg (V m c main_arg0) (funext fun a => Fin.ext ?_)
  match a with
  | ⟨0, _⟩ => show win0_0.index t (0 : Fin 3) * 1 + 1 * 0 = win0_3.index t (0 : Fin 3); omega
  | ⟨1, _⟩ => show win0_0.index t (1 : Fin 3) * 256 + 1 * r.val = r.val; omega
  | ⟨2, _⟩ => show win0_0.index t (2 : Fin 3) * 8192 + 1 * k.val = k.val; omega

/-- The weight block at point `t`: the column of sample `pt t`. -/
theorem read1 (c : Dev nD) (t : Fin cfg0.N) (r : Fin 256) (u : Fin 1) :
    (iblk m c 1 t : Vec Ideal S1x256x1 .f32) (ix3 (0 : Fin 1) r u) = V m c main_v7 (ix3 (pt t) r u) := by
  obtain ⟨-, -, -, e0, e1, e2, -⟩ := idx_facts t
  show V m c main_v7 (((cfg0.win 1).blk t).view.emb (ix3 (0 : Fin 1) r u)) = V m c main_v7 (ix3 (pt t) r u)
  refine congrArg (V m c main_v7) (funext fun a => Fin.ext ?_)
  match a with
  | ⟨0, _⟩ => show win0_1.index t (0 : Fin 3) * 1 + 1 * 0 = win0_3.index t (0 : Fin 3); omega
  | ⟨1, _⟩ => show win0_1.index t (1 : Fin 3) * 256 + 1 * r.val = r.val; omega
  | ⟨2, _⟩ => show win0_1.index t (2 : Fin 3) * 1 + 1 * u.val = u.val; omega

/-- The bias block at point `t`. -/
theorem read2 (c : Dev nD) (t : Fin cfg0.N) (r : Fin 256) (u : Fin 1) :
    (iblk m c 2 t : Vec Ideal S1x256x1 .f32) (ix3 (0 : Fin 1) r u) = V m c main_v15 (ix3 (pt t) r u) := by
  obtain ⟨-, -, -, -, -, -, e0, e1, e2, -⟩ := idx_facts t
  show V m c main_v15 (((cfg0.win 2).blk t).view.emb (ix3 (0 : Fin 1) r u)) = V m c main_v15 (ix3 (pt t) r u)
  refine congrArg (V m c main_v15) (funext fun a => Fin.ext ?_)
  match a with
  | ⟨0, _⟩ => show win0_2.index t (0 : Fin 3) * 1 + 1 * 0 = win0_3.index t (0 : Fin 3); omega
  | ⟨1, _⟩ => show win0_2.index t (1 : Fin 3) * 256 + 1 * r.val = r.val; omega
  | ⟨2, _⟩ => show win0_2.index t (2 : Fin 3) * 1 + 1 * u.val = u.val; omega

/-- Every index of a `[1, 256, 8192]` block is `(0, r, l)`. -/
theorem eq_block_ix (x : S1x256x8192.Idx) : ∃ (r : Fin 256) (l : Fin 8192), x = ix3 (0 : Fin 1) r l :=
  ⟨x 1, x 2, (eq_ix3 x).trans (congrArg (fun z : Fin 1 => ix3 z (x 1 : Fin 256) (x 2 : Fin 8192)) (Fin.eq_zero (x 0)))⟩

/-- What point `t` writes back is block `t` of `arrayOut` of the staged arrays. -/
theorem flushed_eq (c : Dev nD) (t : Fin cfg0.N) :
    (dats m 0 c).flushed 3 t
      = ((cfg0.win 3).blk t).view.read (Elt Ideal) (arrayOut (V m c main_arg0) (V m c main_v7) (V m c main_v15)) := by
  rw [Cert.KernelIdeal.Value.flushed3_A, Body.out_eq]
  funext j
  obtain ⟨r, l, rfl⟩ := eq_block_ix j
  show Body.blockOut (iblk m c 0 t) (iblk m c 1 t) (iblk m c 2 t) (ix3 (0 : Fin 1) r l)
    = arrayOut (V m c main_arg0) (V m c main_v7) (V m c main_v15) (((cfg0.win 3).blk t).view.emb (ix3 (0 : Fin 1) r l))
  have hE : ((cfg0.win 3).blk t).view.emb (ix3 (0 : Fin 1) r l) = ix3 (pt t) r l := by
    obtain ⟨-, -, -, -, -, -, -, -, -, e1, e2, -⟩ := idx_facts t
    funext a; apply Fin.ext
    match a with
    | ⟨0, _⟩ => show win0_3.index t (0 : Fin 3) * 1 + 1 * 0 = win0_3.index t (0 : Fin 3); omega
    | ⟨1, _⟩ => show win0_3.index t (1 : Fin 3) * 256 + 1 * r.val = r.val; omega
    | ⟨2, _⟩ => show win0_3.index t (2 : Fin 3) * 8192 + 1 * l.val = l.val; omega
  rw [hE]
  have h0 : (fun k : Fin 8192 => (iblk m c 0 t : Vec Ideal S1x256x8192 .f32) (ix3 (0 : Fin 1) r k))
      = fun k : Fin 8192 => V m c main_arg0 (ix3 (pt t) r k) := funext fun k => read0 m c t r k
  show RowNorm.moments _ _ (fun k : Fin 8192 => (iblk m c 0 t : Vec Ideal S1x256x8192 .f32) (ix3 (0 : Fin 1) r k))
      ((iblk m c 1 t : Vec Ideal S1x256x1 .f32) (ix3 (0 : Fin 1) r (0 : Fin 1))) ((iblk m c 2 t : Vec Ideal S1x256x1 .f32) (ix3 (0 : Fin 1) r (0 : Fin 1))) l
    = RowNorm.moments _ _ (fun k : Fin 8192 => V m c main_arg0 (ix3 (pt t) r k)) (V m c main_v7 (ix3 (pt t) r (0 : Fin 1)))
      (V m c main_v15 (ix3 (pt t) r (0 : Fin 1))) l
  rw [h0, read1 m c t r, read2 m c t r]

/-- An index of the output array is in point `t`'s block iff each coordinate is in the block's range on its axis. -/
theorem mem_blk (t : Fin cfg0.N) (i : S32x256x8192.Idx) :
    i ∈ ((cfg0.win 3).blk t).view.set ↔ ∀ a : Fin 3, win0_3.index t a * S1x256x8192.size a ≤ (i a).val
      ∧ (i a).val < win0_3.index t a * S1x256x8192.size a + S1x256x8192.size a := by
  show i ∈ ((View.whole main_v16).slice (win0_3.rect t)).set ↔ _
  rw [View.set_slice_whole, Rect.mem_set_unit]
  exact Iff.rfl

/-- The 32 blocks tile the output array: index `(b, c, l)` is in the block of the point that handles sample `b`. -/
theorem cover (i : S32x256x8192.Idx) : ∃ t : Fin cfg0.N, (cfg0.win 3).flush t = true ∧ i ∈ ((cfg0.win 3).blk t).view.set := by
  have h0 : (i 0).val < 32 := (i 0).isLt
  have h1 : (i 1).val < 256 := (i 1).isLt
  have h2 : (i 2).val < 8192 := (i 2).isLt
  obtain ⟨t, ht⟩ := idx_onto ⟨(i 0).val, h0⟩
  obtain ⟨-, -, -, -, -, -, -, -, -, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; simp only at ht; omega
  | ⟨1, _⟩ => show win0_3.index t (1 : Fin 3) * 256 ≤ (i 1).val ∧ (i 1).val < win0_3.index t (1 : Fin 3) * 256 + 256; omega
  | ⟨2, _⟩ => show win0_3.index t (2 : Fin 3) * 8192 ≤ (i 2).val ∧ (i 2).val < win0_3.index t (2 : Fin 3) * 8192 + 8192; omega

/-- The output array after the run. -/
theorem final (c : Dev nD) :
    (dats m 0 c).arrAt 3 cfg0.N = arrayOut (V m c main_arg0) (V m c main_v7) (V m c main_v15) :=
  (dats m 0 c).arrAt_eq_of_cover 3 (arrayOut (V m c main_arg0) (V m c main_v7) (V m c main_v15))
    (fun t _ => flushed_eq m c t) cover

end Cert.KernelIdeal.Whole

end
-- ==== Proof.KernelRun.lean ====
/-
  The kernel's run, read: the output array as one function of the FOUR ARGUMENTS. The weight and bias columns the
  windows stage are written by the host before the launch: the style ids wrapped (a negative id counts from the end),
  one row of the `[4, 256]` table gathered per sample, and the `[32, 256]` result recast as `[32, 256, 1]`.
-/
import proofs.«163896_j21260088115456_2_alg».proof.Proof.KernelArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The start indices of the row gather: the ids, a negative one moved up by the table's 4 rows, as a `[32, 1]` array. -/
def wrapIds (ids : IVec S32 32) : IVec S32x1 32 :=
  broadcastInDim S32x1 ![0] bcast_S32_S32x1_0
    (select (cmpi .slt ids (broadcastInDim S32 ![] bcast_S_S32 (constantI S_ 32 0#32)))
      (addi ids (broadcastInDim S32 ![] bcast_S_S32 (constantI S_ 32 4#32))) ids)

/-- The per-sample column a window stages: the table's rows gathered at the wrapped ids, as `[32, 256, 1]`. -/
def colOf (tbl : S4x256.Idx → EReal) (ids : IVec S32 32) : S32x256x1.Idx → EReal :=
  shapeCast S32x256x1 (Host.gather gather_S4x256_S32x1_S32x256_1_0_n_n_0_1_1256 tbl (wrapIds ids)) shapeCasts_S32x256_S32x256x1

variable (m : (ℓ : Loc nD τ sig) → Buf (Elt Ideal) ℓ) (ρ : Dev nD → PrngReg)

/-- The weight column as the region finds it. -/
theorem V_main_v7 (c : Dev nD) :
    (V m c main_v7 : S32x256x1.Idx → EReal) = colOf (m ((c : Thread nD τ).loc main_arg1)) (m ((c : Thread nD τ).loc main_arg3)) := by
  dsimp only [Gen.V, Gen.hostOps0]
  after_results
  rfl

/-- The bias column as the region finds it. -/
theorem V_main_v15 (c : Dev nD) :
    (V m c main_v15 : S32x256x1.Idx → EReal) = colOf (m ((c : Thread nD τ).loc main_arg2)) (m ((c : Thread nD τ).loc main_arg3)) := by
  dsimp only [Gen.V, Gen.hostOps0]
  after_results
  rfl

/-- The run: the result array at `arrayOut` of the arguments, the arguments unchanged. -/
theorem run : θ_run defs (onTc (τ := τ) (main (F := Ideal))) ⟨m, fun _ => 0, ρ⟩ fun r => ∀ c : Dev nD,
      r.2.mem ((c : Thread nD τ).loc main_v16)
        = arrayOut (m ((c : Thread nD τ).loc main_arg0))
            (colOf (m ((c : Thread nD τ).loc main_arg1)) (m ((c : Thread nD τ).loc main_arg3)))
            (colOf (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0, V_main_v7, V_main_v15])), (h c).2⟩)
    (Cert.KernelIdeal.Value.run_blocks m ρ)

end Cert.KernelIdeal.Whole

end
-- ==== Proof.ReferenceRow.lean ====
/-
  The reference at an index: entry `(b, c, l)` of its result is row `(b, c)` of `x` normalised in the "centred" arrangement
  (mean by division, variance as the mean of the squared centred entries) and sent through the affine map with the weight
  and the bias that the two row gathers give sample `b` at channel `c`. Every operation of the reference reads one element
  (or one row) of its operand, so this is the generated index-by-index reading, the composed index maps named by their
  coordinates.
-/
import proofs.«163896_j21260088115456_2_alg».proof.Proof.Gen.ReferenceIdeal.Read
import proofs.«163896_j21260088115456_2_alg».proof.Proof.RowNormLaw
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx
open scoped BigOperators

/-! ### The composed index maps, by coordinates -/

section Indices
variable (b : Fin 32) (c : Fin 256)

theorem i_v4 (l : Fin 8192) : idx_main_v4 (ix3 b c l) = ix3 b c (0 : Fin 1) :=
  funext fun a => Fin.ext (by match a with | ⟨0, _⟩ => rfl | ⟨1, _⟩ => rfl | ⟨2, _⟩ => rfl)
theorem i_v11 (l : Fin 8192) : idx_main_v11 (ix3 b c l) = ix3 b c (0 : Fin 1) :=
  funext fun a => Fin.ext (by match a with | ⟨0, _⟩ => rfl | ⟨1, _⟩ => rfl | ⟨2, _⟩ => rfl)
theorem i_v16 (l : Fin 8192) : idx_main_v16 (ix3 b c l) = ix3 b c (0 : Fin 1) :=
  funext fun a => Fin.ext (by match a with | ⟨0, _⟩ => rfl | ⟨1, _⟩ => rfl | ⟨2, _⟩ => rfl)
theorem i_v33 (l : Fin 8192) : idx_main_v33 (ix3 b c l) = ix3 b c (0 : Fin 1) :=
  funext fun a => Fin.ext (by match a with | ⟨0, _⟩ => rfl | ⟨1, _⟩ => rfl | ⟨2, _⟩ => rfl)
theorem i_v36 (l : Fin 8192) : idx_main_v36 (ix3 b c l) = ix3 b c (0 : Fin 1) :=
  funext fun a => Fin.ext (by match a with | ⟨0, _⟩ => rfl | ⟨1, _⟩ => rfl | ⟨2, _⟩ => rfl)
theorem i_v1 (u : Fin 1) : idx_main_v1 (ix3 b c u) = ix2 b c :=
  funext fun a => Fin.ext (by match a with | ⟨0, _⟩ => rfl | ⟨1, _⟩ => rfl)
theorem i_v8 (u : Fin 1) : idx_main_v8 (ix3 b c u) = ix2 b c :=
  funext fun a => Fin.ext (by match a with | ⟨0, _⟩ => rfl | ⟨1, _⟩ => rfl)
theorem i_v32 (u : Fin 1) : idx_main_v32 (ix3 b c u) = ix2 b c :=
  funext fun a => Fin.ext (by match a with | ⟨0, _⟩ => rfl | ⟨1, _⟩ => rfl)
theorem i_v35 (u : Fin 1) : idx_main_v35 (ix3 b c u) = ix2 b c :=
  funext fun a => Fin.ext (by match a with | ⟨0, _⟩ => rfl | ⟨1, _⟩ => rfl)
theorem i_v0 (k : Fin 8192) : idx_main_v0 (ix2 b c) k = ix3 b c k :=
  funext fun a => Fin.ext (by match a with | ⟨0, _⟩ => rfl | ⟨1, _⟩ => rfl | ⟨2, _⟩ => rfl)
theorem i_v7 (k : Fin 8192) : idx_main_v7 (ix2 b c) k = ix3 b c k :=
  funext fun a => Fin.ext (by match a with | ⟨0, _⟩ => rfl | ⟨1, _⟩ => rfl | ⟨2, _⟩ => rfl)

end Indices

/-- The reference's result at `(b, c, l)`. -/
theorem ref_apply (x0 : (⟨S32x256x8192, .f32⟩ : BufTy).Contents (Elt Ideal)) (x1 x2 : (⟨S4x256, .f32⟩ : BufTy).Contents (Elt Ideal))
    (x3 : (⟨S32, .i32⟩ : BufTy).Contents (Elt Ideal)) (b : Fin 32) (c : Fin 256) (l : Fin 8192) :
    val_main_v37 (F := Ideal) x0 x1 x2 x3 (ix3 b c l)
      = RowNorm.centred (Ideal.ofBits .f32 0x46000000#32) (Ideal.ofBits .f32 0x3727C5AC#32)
          (fun k : Fin 8192 => x0 (ix3 b c k)) (val_main_v24 (F := Ideal) x1 x3 (ix2 b c)) (val_main_v31 (F := Ideal) x2 x3 (ix2 b c)) l := by
  unfold RowNorm.centred
  simp only [val_main_v37_apply, val_main_v36_apply, val_main_v35_apply, val_main_v34_apply, val_main_v33_apply, val_main_v32_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply,
    i_v4, i_v11, i_v16, i_v33, i_v36, i_v1, i_v8, i_v32, i_v35, i_v0, i_v7,
    Ideal.addf_def, Ideal.subf_def, Ideal.mulf_def, Ideal.hostDivf_def, Ideal.hostUnary_rsqrt_def, Ideal.ofBits_def,
    Ideal.ofBits_zero_f32]

end Cert.ReferenceIdeal.RowValue

end
-- ==== Proof.Consts.lean ====
/-
  The float literals of the two programs as extended reals: `2⁻¹³` (the folded reciprocal of the row length
  8192, an exact dyadic, so it IS `1/8192`), `8192` itself, and the `ε` under the root (the single-precision
  neighbour of `10⁻⁵`, of which only positivity matters: the same word stands on both sides).
-/
import Idealize.ShloMosaic.PureOps.Ideal
import Idealize.ShloMosaic.PureOps.Ideal.Laws

noncomputable section

namespace Cert.Consts

open Idealize.ShloMosaic

/-- The word `0x39000000` denotes `2⁻¹³ = 1/8192`. -/
theorem ofBits_inv_8192 : Ideal.ofBits .f32 0x39000000#32 = (((1 / 8192 : ℝ)) : EReal) := by
  simp [Ideal.ofBits, Ideal.ieee, -EReal.coe_mul]; norm_num

/-- The word `0x46000000` denotes `8192`. -/
theorem ofBits_8192 : Ideal.ofBits .f32 0x46000000#32 = ((8192 : ℝ) : EReal) := by
  simp [Ideal.ofBits, Ideal.ieee, -EReal.coe_mul]; norm_num

/-- The word `0x3727C5AC` denotes a positive real. -/
theorem ofBits_eps : ∃ e : ℝ, 0 < e ∧ Ideal.ofBits .f32 0x3727C5AC#32 = (e : EReal) := by
  refine ⟨(2 ^ 23 + 2606508 : ℕ) * (2 : ℝ) ^ ((110 : Int) - 127 - 23), by positivity, ?_⟩
  simp [Ideal.ofBits, Ideal.ieee, -EReal.coe_mul]

end Cert.Consts

end
-- ==== Proof.Bridge.lean ====
/-
  The two programs compute one function. Index by index: the kernel's result is row `(b, c)` of `x` normalised in the
  "moments" arrangement, the reference's the same row in the "centred" arrangement, both with the weight and bias that
  ONE row gather (the same wrapped ids, the same table) gives sample `b` at channel `c`; a gathered entry is an entry of
  the table, so under the precondition everything in sight is real and the row law applies. The kernel's `2⁻¹³` is
  exactly the reciprocal of the reference's divisor 8192.
-/
import proofs.«163896_j21260088115456_2_alg».proof.Proof.KernelRun
import proofs.«163896_j21260088115456_2_alg».proof.Proof.ReferenceRow
import proofs.«163896_j21260088115456_2_alg».proof.Proof.Consts

noncomputable section

namespace Cert.Bridge

open Idealize.ShloMosaic Idealize.ShloMosaic.ValueIdx
open Cert.KernelIdeal.Whole (arrayOut colOf)

/-- A `[32, 256]` array recast as `[32, 256, 1]` reads, at `(p, q, u)`, the array at `(p, q)`. -/
theorem shapeCast_ab_ab1_apply {α : Type} (x : (⟨2, ![32, 256]⟩ : Shape).Idx → α)
    (h : (⟨2, ![32, 256]⟩ : Shape).ShapeCasts ⟨3, ![32, 256, 1]⟩) (p : Fin 32) (q : Fin 256) (u : Fin 1) :
    shapeCast ⟨3, ![32, 256, 1]⟩ x h (ix3 p q u) = x (ix2 p q) :=
  shapeCast_apply x h _ _ (by
    have hu : u.val = 0 := by have := u.isLt; omega
    rw [Shape.rowMajor_val_three, Shape.rowMajor_val_two]
    show p.val * 256 + q.val = (p.val * 256 + q.val) * 1 + u.val
    omega)

/-- The kernel's result array and the reference's are one function of real arguments. -/
theorem result_eq (x0 : (⟨3, ![32, 256, 8192]⟩ : Shape).Idx → EReal) (x1 x2 : (⟨2, ![4, 256]⟩ : Shape).Idx → EReal)
    (x3 : IVec ⟨1, ![32]⟩ 32)
    (h0 : ∀ i, ∃ r : ℝ, x0 i = r) (h1 : ∀ i, ∃ r : ℝ, x1 i = r) (h2 : ∀ i, ∃ r : ℝ, x2 i = r) :
    arrayOut x0 (colOf x1 x3) (colOf x2 x3) = Cert.ReferenceIdeal.Read.val_main_v37 (F := Ideal) x0 x1 x2 x3 := by
  funext i
  obtain ⟨b, c, l, rfl⟩ : ∃ (b : Fin 32) (c : Fin 256) (l : Fin 8192), i = ix3 b c l := ⟨i 0, i 1, i 2, eq_ix3 i⟩
  rw [Cert.ReferenceIdeal.RowValue.ref_apply]
  show RowNorm.moments _ _ (fun k : Fin 8192 => x0 (ix3 b c k)) (colOf x1 x3 (ix3 b c (0 : Fin 1))) (colOf x2 x3 (ix3 b c (0 : Fin 1))) l = _
  have hw : colOf x1 x3 (ix3 b c (0 : Fin 1)) = Cert.ReferenceIdeal.Read.val_main_v24 (F := Ideal) x1 x3 (ix2 b c) := by
    unfold colOf
    exact (shapeCast_ab_ab1_apply _ _ b c 0).trans rfl
  have hb : colOf x2 x3 (ix3 b c (0 : Fin 1)) = Cert.ReferenceIdeal.Read.val_main_v31 (F := Ideal) x2 x3 (ix2 b c) := by
    unfold colOf
    exact (shapeCast_ab_ab1_apply _ _ b c 0).trans rfl
  rw [hw, hb]
  choose xr hxr using fun k : Fin 8192 => h0 (ix3 b c k)
  obtain ⟨wr, hwr⟩ : ∃ r : ℝ, Cert.ReferenceIdeal.Read.val_main_v24 (F := Ideal) x1 x3 (ix2 b c) = r := h1 _
  obtain ⟨br, hbr⟩ : ∃ r : ℝ, Cert.ReferenceIdeal.Read.val_main_v31 (F := Ideal) x2 x3 (ix2 b c) = r := h2 _
  obtain ⟨e, he, hε⟩ := Cert.Consts.ofBits_eps
  rw [show (fun k : Fin 8192 => x0 (ix3 b c k)) = fun k => ((xr k : ℝ) : EReal) from funext hxr, hwr, hbr, hε,
    Cert.Consts.ofBits_inv_8192, Cert.Consts.ofBits_8192]
  exact RowNorm.moments_eq_centred 8192 (by norm_num) (by norm_num) e he xr wr br l

end Cert.Bridge

end
-- ==== Proof.RealInputs.lean ====
/-
  The precondition read back: an extended real whose absolute value compares below `+∞` is a real number, so under
  `finite_inputs` every entry of the three float arguments is real.
-/
import proofs.«163896_j21260088115456_2_alg».proof.Pre_finite_inputs
import Idealize.ShloMosaic.Lib.ReduceAll
import Idealize.ShloMosaic.Lib.ValueIdx
import Idealize.ShloMosaic.PureOps.Ideal.Laws

noncomputable section

namespace Cert.Pre_finite_inputs.Real

open Cert.Pre_finite_inputs Idealize.ShloMosaic Idealize.ShloMosaic.ValueIdx

/-- The scalar shape has one index. -/
instance : Subsingleton S_.Idx := ⟨fun _ _ => funext fun d => d.elim0⟩

/-- `|x| < +∞` (as the comparison's bit) makes `x` real. -/
theorem real_of_abs_lt (x : EReal) (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

variable [Facts]

/-- Under `finite_inputs` every entry of `x`, `weight` and `bias` is a real number. -/
theorem real_of_pre (x0 : FVec Ideal S32x256x8192 .f32) (x1 x2 : FVec Ideal S4x256 .f32) (x3 : IVec S32 32)
    (h : fn (F := Ideal) x0 x1 x2 x3 = fun _ => 1#1) :
    (∀ i, ∃ r : ℝ, x0 i = r) ∧ (∀ i, ∃ r : ℝ, x1 i = r) ∧ (∀ i, ∃ r : ℝ, x2 i = r) := by
  have h0 := congrFun h ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ ix0 h0' i)
  · exact real_of_abs_lt _ (Host.reduce_andi_all _ _ _ _ ix0 h1 i)
  · exact real_of_abs_lt _ (Host.reduce_andi_all _ _ _ _ ix0 h2 i)

end Cert.Pre_finite_inputs.Real

end
-- ==== Proof.lean ====
/-
  Conditional instance normalisation: the kernel keeps a sample's `[256, 8192]` slab in one block, takes each row's sum and
  sum of squares in eight chunks, and writes `x · scale + shift` with the row's scale and shift; the reference centres
  each row, divides by the root of the mean squared deviation plus `ε`, and applies the sample's weight and bias. Read at
  the extended reals the two results are one function of real arguments (Proof/Bridge.lean): that is the algebraic
  claim. The three frames are the runs themselves with the result dropped; the idealization rewrote nothing.
-/
import proofs.«163896_j21260088115456_2_alg».proof.Defs
import proofs.«163896_j21260088115456_2_alg».proof.Proof.Gen.Kernel
import proofs.«163896_j21260088115456_2_alg».proof.Proof.Gen.Kernel.Skeleton
import proofs.«163896_j21260088115456_2_alg».proof.Proof.Gen.Kernel.Loops
import proofs.«163896_j21260088115456_2_alg».proof.Proof.Gen.Kernel.Launch
import proofs.«163896_j21260088115456_2_alg».proof.Proof.Gen.Kernel.Points
import proofs.«163896_j21260088115456_2_alg».proof.Proof.Gen.Kernel.Frame
import proofs.«163896_j21260088115456_2_alg».proof.Proof.Gen.KernelIdeal
import proofs.«163896_j21260088115456_2_alg».proof.Proof.Gen.KernelIdeal.Skeleton
import proofs.«163896_j21260088115456_2_alg».proof.Proof.Gen.KernelIdeal.Loops
import proofs.«163896_j21260088115456_2_alg».proof.Proof.Gen.KernelIdeal.Launch
import proofs.«163896_j21260088115456_2_alg».proof.Proof.Gen.KernelIdeal.Points
import proofs.«163896_j21260088115456_2_alg».proof.Proof.Gen.KernelIdeal.Frame
import proofs.«163896_j21260088115456_2_alg».proof.Proof.Gen.ReferenceIdeal
import proofs.«163896_j21260088115456_2_alg».proof.Proof.Gen.Pre_finite_inputs
import proofs.«163896_j21260088115456_2_alg».proof.Proof.Gen.KernelIdeal.Value
import proofs.«163896_j21260088115456_2_alg».proof.Proof.Gen.ReferenceIdeal.Run
import proofs.«163896_j21260088115456_2_alg».proof.Proof.Gen.ReferenceIdeal.Read
import proofs.«163896_j21260088115456_2_alg».proof.Proof.Bridge
import proofs.«163896_j21260088115456_2_alg».proof.Proof.RealInputs
import Idealize.ShloMosaic.Adequacy
import Idealize.ShloMosaic.Init

noncomputable section

namespace Cert.Proof

open Idealize.ShloMosaic Idealize.ShloMosaic.TcCoe Idealize.SL.Sem

namespace Claims

/-- The kernel as printed runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the kernel's run gives the row-by-row normalisation in its
    "moments" arrangement, the reference's run its "centred" one, and on the real arguments the precondition grants the
    two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨r0, r1, r2⟩ := Cert.Pre_finite_inputs.Real.real_of_pre _ _ _ _ (hpre c)
  exact (Cert.ReferenceIdeal.Read.val_main_v37_eq _ _ _ _).trans (Cert.Bridge.result_eq _ _ _ _ r0 r1 r2).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
